-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1024x64 : Shape := ⟨2, ![1024, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S65536x64 .f32) (main_arg1 : FVec F S1024x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S65536x64 : Shape := ⟨2, ![65536, 64]⟩
abbrev S1024x64 : Shape := ⟨2, ![1024, 64]⟩
abbrev S_ : Shape := ⟨0, ![]⟩
abbrev S1024 : Shape := ⟨1, ![1024]⟩
abbrev S1x1024 : Shape := ⟨2, ![1, 1024]⟩
abbrev S65536x1024 : Shape := ⟨2, ![65536, 1024]⟩
abbrev S2048x64 : Shape := ⟨2, ![2048, 64]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 7
  | .vmem => 6
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S65536x1024, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x64_S1024_d1 : S1024x64.ReducesTo [1] S1024
  h_S_ : 0 < S_.numel
  bcast_S1024_S1x1024_1 : S1024.BroadcastsInDim S1x1024 (![1] : Fin 1 → Fin S1x1024.rank)
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S2048x64_S2048 : S2048x64.Reduces [1] S2048
  shapeCasts_S2048_S2048x1 : S2048.ShapeCasts S2048x1
  bitsLt_bf16_f32 : FTy.bits .bf16 < FTy.bits .f32
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S65536x1024.size a
  hwx0_3 : ∀ i : grid0.Coords, EltTy.bits .f32 = 32 ∨ (Rect.block (s := S65536x1024) S2048x1024.size (cc0_transform_3 i) (hinb0_3 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x64 : Shape := ⟨2, ![65536, 64]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S65536x1024 : Shape := ⟨2, ![65536, 1024]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S65536x1024, .f32⟩
  | .hbm, ⟨10, _⟩ => ⟨S1x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S65536x1024, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  dot_S65536x64_S1024x64_S65536x1024_1_1_0_0_n_n_wf : DotDims.WF S65536x64 S1024x64 S65536x1024 [1] [1] [0] [0] [] []

variable [Facts₀]

def dot_S65536x64_S1024x64_S65536x1024_1_1_0_0_n_n : DotDims S65536x64 S1024x64 S65536x1024 where
  lhsContracting := [1]
  rhsContracting := [1]
  lhsNonContracting := [0]
  rhsNonContracting := [0]
  lhsBatch := []
  rhsBatch := []
  wf := dot_S65536x64_S1024x64_S65536x1024_1_1_0_0_n_n_wf

class Facts : Prop extends Facts₀ where

variable [Facts]
-- ==== Proof.RbfSpec.lean ====
/-
  The radial basis layer, as one function of its two argument arrays.

  For samples `x : [65536, 64]` and centres `c : [1024, 64]` the layer's response at (sample `b`, centre `n`) is
  `exp (γ' · max (‖x_b‖² + ‖c_n‖² − 2 · ⟨x_b, c_n⟩, 0))`: the squared distance `‖x_b − c_n‖²` written through its
  expansion, clamped at zero, scaled by the (negative) width constant `γ'` and exponentiated.  Everything is read on
  the extended reals; the two constants `2` and `γ'` stay the words the programs print, never evaluated.
-/
import Idealize.ShloMosaic.PureOps.Ideal.Laws
import Idealize.ShloMosaic.Lib.ValueIdx

noncomputable section

open Idealize.ShloMosaic Idealize.ShloMosaic.ValueIdx

namespace Cert.Rbf

/-- The squared norm of row `r` of a matrix: the sum of its entries' squares. -/
def sqNorm {n d : Nat} (x : FVec Ideal ⟨2, ![n, d]⟩ .f32) (r : Fin n) : EReal :=
  ∑ k : Fin d, x (ix2 r k) * x (ix2 r k)

/-- The inner product of row `r` of `x` with row `j` of `c`. -/
def dotRows {n n' d : Nat} (x : FVec Ideal ⟨2, ![n, d]⟩ .f32) (c : FVec Ideal ⟨2, ![n', d]⟩ .f32) (r : Fin n) (j : Fin n') : EReal :=
  ∑ k : Fin d, x (ix2 r k) * c (ix2 j k)

/-- The response from the three numbers it depends on: a sample's squared norm `xs`, a centre's squared norm `cs`
    and their inner product `xc`. -/
def response (xs cs xc : EReal) : EReal :=
  Ideal.exp (Ideal.ofBits .f32 0xBDCCCCCD#32 * max (xs + cs - Ideal.ofBits .f32 0x40000000#32 * xc) 0)

/-- The layer: the response at every (sample, centre) pair. -/
def rbf (x : FVec Ideal ⟨2, ![65536, 64]⟩ .f32) (c : FVec Ideal ⟨2, ![1024, 64]⟩ .f32) : FVec Ideal ⟨2, ![65536, 1024]⟩ .f32 :=
  fun i => response (sqNorm x (i 0)) (sqNorm c (i 1)) (dotRows x c (i 0) (i 1))

/-- The layer at a pair of coordinates. -/
theorem rbf_apply (x : FVec Ideal ⟨2, ![65536, 64]⟩ .f32) (c : FVec Ideal ⟨2, ![1024, 64]⟩ .f32) (b : Fin 65536) (n : Fin 1024) :
    rbf x c (ix2 b n) = response (sqNorm x b) (sqNorm c n) (dotRows x c b n) := rfl

end Cert.Rbf

end
-- ==== Proof.RefIsRbf.lean ====
/-
  The reference computes the radial basis layer.

  Read one operation at a time, the reference's result at (sample `b`, centre `n`) is the exponential of the width
  constant times the clamped sum `‖x_b‖² + ‖c_n‖² − 2 · ⟨x_b, c_n⟩`: each squared norm a row sum started from zero,
  the inner product the contraction of the two arrays' second axes, the broadcasts reading row `b` of the one column
  and column `n` of the one row.  That is the layer function `Cert.Rbf.rbf` of the two argument arrays.
-/
import proofs.«113761_j87668872446249_2_alg».proof.Proof.Gen.ReferenceIdeal.Read
import proofs.«113761_j87668872446249_2_alg».proof.Proof.RbfSpec

noncomputable section

namespace Cert.ReferenceIdeal.RefValue

open Cert.ReferenceIdeal Cert.ReferenceIdeal.Gen Cert.ReferenceIdeal.Read
open Idealize.ShloMosaic Idealize.ShloMosaic.ValueIdx

/-- The samples' row sum, read through the column and its broadcast at `(b, n)`, runs over row `b`. -/
theorem sampleRow (b : Fin 65536) (n : Fin 1024) (k : Fin 64) :
    idx_main_v1 (idx_main_v2 (idx_main_v7 (ix2 b n))) k = ix2 b k :=
  funext fun a => Fin.ext (by match a with | ⟨0, _⟩ => rfl | ⟨1, _⟩ => rfl)

/-- The centres' row sum, read through the row and its broadcast at `(b, n)`, runs over row `n`. -/
theorem centreRow (b : Fin 65536) (n : Fin 1024) (k : Fin 64) :
    idx_main_v4 (idx_main_v6 (idx_main_v8 (ix2 b n))) k = ix2 n k :=
  funext fun a => Fin.ext (by match a with | ⟨0, _⟩ => rfl | ⟨1, _⟩ => rfl)

/-- The contraction at `(b, n)` pairs row `b` of the samples … -/
theorem crossLeft (b : Fin 65536) (n : Fin 1024) (k : Fin 64) : lidx_main_v5 (ix2 b n) k = ix2 b k :=
  funext fun a => Fin.ext (by match a with | ⟨0, _⟩ => rfl | ⟨1, _⟩ => rfl)

/-- … with row `n` of the centres. -/
theorem crossRight (b : Fin 65536) (n : Fin 1024) (k : Fin 64) : ridx_main_v5 (ix2 b n) k = ix2 n k :=
  funext fun a => Fin.ext (by match a with | ⟨0, _⟩ => rfl | ⟨1, _⟩ => rfl)

/-- The reference's last stage is the layer function of the two argument arrays. -/
theorem reference_is_rbf (x0 : FVec Ideal S65536x64 .f32) (x1 : FVec Ideal S1024x64 .f32) :
    val_main_v17 (F := Ideal) x0 x1 = Cert.Rbf.rbf x0 x1 := by
  funext i
  obtain ⟨b, n, rfl⟩ : ∃ (b : Fin 65536) (n : Fin 1024), i = ix2 b n := ⟨i 0, i 1, eq_ix2 i⟩
  rw [Cert.Rbf.rbf_apply, val_main_v17_apply, val_main_v16_apply, val_main_v15_apply, val_main_cst_3_apply, val_main_v14_apply,
    val_main_v13_apply, val_main_cst_2_apply, val_main_v12_apply, val_main_v9_apply, val_main_v7_apply, val_main_v2_apply,
    val_main_v1_apply, val_main_v8_apply, val_main_v6_apply, val_main_v4_apply, val_main_v11_apply, val_main_v10_apply,
    val_main_cst_1_apply, val_main_v5_apply]
  simp only [val_main_v0_apply, val_main_v3_apply, val_main_cst_apply, val_main_cst_0_apply, sampleRow, centreRow, crossLeft,
    crossRight, Ideal.hostUnary_exp_def, Ideal.mulf_def, Ideal.maximumf_def, Ideal.subf_def, Ideal.addf_def, Ideal.ofBits_def,
    Ideal.ofBits_zero_f32, zero_add]
  rfl

end Cert.ReferenceIdeal.RefValue

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.LibRowProducts.lean ====
/-
  Products of the rows of two matrices, on the extended reals.

  General lemma, for any extents: the product of an `M × K` matrix `A` with the transpose of an `N × K` matrix `B`
  — both operands contracted along their second axis — into a zero accumulator, read at `(i, j)`, is the sum over
  `l` of `A (i, l) · B (j, l)`: the inner product of row `i` of `A` with row `j` of `B`.  Indices are built
  from their coordinates (`ix2`), so the lemma rewrites a term at a literal position.
-/
import Idealize.ShloMosaic.PureOps.Ideal.Laws
import Idealize.ShloMosaic.Lib.ValueIdx

noncomputable section

open Idealize.ShloMosaic Idealize.ShloMosaic.ValueIdx

namespace Cert.RowProducts

/-- A product of an `M × K` matrix with the transpose of an `N × K` matrix into a zero accumulator, read at
    `(i, j)`: the sum over the contracted position `l` of `A (i, l) · B (j, l)`.  The four hypotheses say which
    coordinate of each operand index is the row and which the contracted position; at a literal record each holds
    by computation. -/
theorem matmul_transposed_zero_apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (j 1).val) (hr1 : ∀ j k, (d.rhsIdx j k 1).val = (k ⟨0, by omega⟩).val)
    (A : FVec Ideal ⟨2, ![M, K]⟩ φ₁) (B : FVec Ideal ⟨2, ![N, K]⟩ φ₂) (i : Fin M) (j : Fin N) :
    matmul d none A B (constant ⟨2, ![M, N]⟩ .f32 0x00000000#32) (ix2 i j) = ∑ l : Fin K, A (ix2 i l) * B (ix2 j l) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 j l := by
    funext a; apply Fin.ext
    match a with
    | ⟨0, _⟩ => exact hr0 _ _
    | ⟨1, _⟩ => exact (hr1 _ _).trans (contrEquiv1_symm_val d K hr hs l)
  rw [e1, e2]

end Cert.RowProducts

end
-- ==== Proof.KernelPoint.lean ====
/-
  What one grid point's body computes, at one position of its block.

  The body holds a block `x` of 2048 samples, all 1024 centres `c`, and the centres' squared norms as one row `s`.
  At position `(p, q)` of its 2048 × 1024 result it stores the response to: the squared norm of row `p` of `x` (a
  sum along the row, kept as a column and spread over the columns), the entry `q` of `s` (the one row spread over
  the rows), and the inner product of row `p` of `x` with row `q` of `c` (the product of `x` with the transpose of
  `c` into a zero accumulator; the narrowing of both operands beforehand is the identity on the extended reals).
-/
import proofs.«113761_j87668872446249_2_alg».proof.Proof.Gen.KernelIdeal.Skeleton
import proofs.«113761_j87668872446249_2_alg».proof.Proof.RbfSpec
import proofs.«113761_j87668872446249_2_alg».proof.Proof.LibMatRows
import proofs.«113761_j87668872446249_2_alg».proof.Proof.LibRowProducts
import Idealize.ShloMosaic.Lib.ValueLayout

noncomputable section

namespace Cert.KernelIdeal.Point

open Cert.KernelIdeal Cert.KernelIdeal.Facts₀ Cert.KernelIdeal.Facts
open Idealize.ShloMosaic Idealize.ShloMosaic.ValueIdx

/-- The contraction record of the body's product: which coordinate of each operand index is the row and which the
    contracted position. -/
abbrev crossDims : DotDims S2048x64 S1024x64 S2048x1024 := dot_S2048x64_S1024x64_S2048x1024_1_1_0_0_n_n

theorem cross_lhs_row (j : S2048x1024.Idx) (k : crossDims.contr.Idx) : (crossDims.lhsIdx j k 0).val = (j 0).val := by
  unfold DotDims.lhsIdx
  rw [dif_neg (show ¬(0 : Fin S2048x64.rank) ∈ crossDims.lhsBatch by decide),
    dif_pos (show (0 : Fin S2048x64.rank) ∈ crossDims.lhsNonContracting by decide)]
  rfl

theorem cross_lhs_pos (j : S2048x1024.Idx) (k : crossDims.contr.Idx) : (crossDims.lhsIdx j k 1).val = (k ⟨0, by decide⟩).val :=
  crossDims.lhsIdx_val_of_single rfl j k

theorem cross_rhs_row (j : S2048x1024.Idx) (k : crossDims.contr.Idx) : (crossDims.rhsIdx j k 0).val = (j 1).val := by
  unfold DotDims.rhsIdx
  rw [dif_neg (show ¬(0 : Fin S1024x64.rank) ∈ crossDims.rhsBatch by decide),
    dif_pos (show (0 : Fin S1024x64.rank) ∈ crossDims.rhsNonContracting by decide)]
  rfl

theorem cross_rhs_pos (j : S2048x1024.Idx) (k : crossDims.contr.Idx) : (crossDims.rhsIdx j k 1).val = (k ⟨0, by decide⟩).val :=
  crossDims.rhsIdx_val_of_single rfl j k

/-- The samples' side: the row sums of the squares, as a column spread over the columns, read at `(p, q)`, is the
    squared norm of row `p`. -/
theorem sampleNorm_apply (x : FVec Ideal S2048x64 .f32) (p : Fin 2048) (q : Fin 1024) :
    broadcastTo S2048x1024 (shapeCast S2048x1 (multiReduction (F := Ideal) .add [1] S2048 (mulf x x) 0x00000000#32
      reduces_S2048x64_S2048 (.inl rfl) rfl) shapeCasts_S2048_S2048x1) broadcasts_S2048x1_S2048x1024 (ix2 p q)
      = Cert.Rbf.sqNorm x p :=
  (Cert.MatRows.colBroadcast_apply _ broadcasts_S2048x1_S2048x1024 p q).trans
    ((Cert.MatRows.colCast_apply _ shapeCasts_S2048_S2048x1 p 0).trans
      (Cert.MatRows.laneSum_apply (mulf x x) 0x00000000#32 reduces_S2048x64_S2048 (.inl rfl) rfl p))

/-- The centres' side: the one row of squared norms, spread over the rows, read at `(p, q)`, is its entry `q`. -/
theorem centreNorm_apply (s : FVec Ideal S1x1024 .f32) (p : Fin 2048) (q : Fin 1024) :
    broadcastTo S2048x1024 (shapeCast S1x1024 s shapeCasts_S1x1024_S1x1024) broadcasts_S1x1024_S2048x1024 (ix2 p q)
      = s (ix2 (0 : Fin 1) q) :=
  (broadcastTo_1b_ab_apply _ broadcasts_S1x1024_S2048x1024 p q).trans
    (congrFun (shapeCast_self s shapeCasts_S1x1024_S1x1024) _)

/-- The cross term: the product with the transposed centres into a zero accumulator, read at `(p, q)`, is the inner
    product of row `p` of the samples with row `q` of the centres. -/
theorem cross_apply (x : FVec Ideal S2048x64 .f32) (c : FVec Ideal S1024x64 .f32) (p : Fin 2048) (q : Fin 1024) :
    matmul crossDims none (truncf .bf16 x bitsLt_bf16_f32) (truncf .bf16 c bitsLt_bf16_f32)
      (constant S2048x1024 .f32 0x00000000#32) (ix2 p q) = Cert.Rbf.dotRows x c p q :=
  Cert.RowProducts.matmul_transposed_zero_apply crossDims rfl rfl cross_lhs_row cross_lhs_pos cross_rhs_row cross_rhs_pos
    (truncf .bf16 x bitsLt_bf16_f32) (truncf .bf16 c bitsLt_bf16_f32) p q

/-- THE BODY AT A POSITION: the stored value at `(p, q)` is the response to the squared norm of the block's row `p`,
    entry `q` of the centres' squared norms, and the inner product of the block's row `p` with centre `q`. -/
theorem payload_apply (x : FVec Ideal S2048x64 .f32) (c : FVec Ideal S1024x64 .f32) (s : FVec Ideal S1x1024 .f32)
    (p : Fin 2048) (q : Fin 1024) :
    Gen.k0_pay1 (F := Ideal) x c s (ix2 p q)
      = Cert.Rbf.response (Cert.Rbf.sqNorm x p) (s (ix2 (0 : Fin 1) q)) (Cert.Rbf.dotRows x c p q) := by
  unfold Gen.k0_pay1 Cert.Rbf.response
  rw [← sampleNorm_apply x p q, ← centreNorm_apply s p q, ← cross_apply x c p q, ← Ideal.ofBits_zero_f32]
  rfl

/-- THE BODY AGAINST THE LAYER, at a position.  Suppose the body's three inputs are what a grid point stages: `x` rows
    `r · 2048 …` of the samples `X`, `cB` all the centres `C`, and `s` the centres' squared norms.  Then the value
    stored at position `j` of the block is the layer's response at the array position `i` that `j` sits at: the
    block's row `p` is the samples' row `r · 2048 + p`, and the columns are the same. -/
theorem payload_is_layer (x : FVec Ideal S2048x64 .f32) (cB : FVec Ideal S1024x64 .f32) (s : FVec Ideal S1x1024 .f32)
    (X : FVec Ideal S65536x64 .f32) (C : FVec Ideal S1024x64 .f32) (r : Nat)
    (hx : ∀ (y : S2048x64.Idx) (k : S65536x64.Idx), (k 0).val = r * 2048 + (y 0).val → (k 1).val = (y 1).val → x y = X k)
    (hc : ∀ y : S1024x64.Idx, cB y = C y)
    (hs : ∀ q : Fin 1024, s (ix2 (0 : Fin 1) q) = Cert.Rbf.sqNorm C q)
    (j : S2048x1024.Idx) (i : S65536x1024.Idx)
    (hi0 : (i 0).val = r * 2048 + (j 0).val) (hi1 : (i 1).val = (j 1).val) :
    Gen.k0_pay1 (F := Ideal) x cB s j = Cert.Rbf.rbf X C i := by
  obtain ⟨p, q, rfl⟩ : ∃ (p : Fin 2048) (q : Fin 1024), j = ix2 p q := ⟨j 0, j 1, eq_ix2 j⟩
  obtain ⟨b, n, rfl⟩ : ∃ (b : Fin 65536) (n : Fin 1024), i = ix2 b n := ⟨i 0, i 1, eq_ix2 i⟩
  have hn : n = q := Fin.ext hi1
  subst hn
  have hb : b.val = r * 2048 + p.val := hi0
  have e1 : Cert.Rbf.sqNorm x p = Cert.Rbf.sqNorm X b :=
    Finset.sum_congr rfl fun k _ => by rw [hx (ix2 p k) (ix2 b k) hb rfl]
  have e2 : Cert.Rbf.dotRows x cB p n = Cert.Rbf.dotRows X C b n :=
    Finset.sum_congr rfl fun k _ => by rw [hx (ix2 p k) (ix2 b k) hb rfl, hc]
  rw [payload_apply, Cert.Rbf.rbf_apply, hs, e1, e2]

end Cert.KernelIdeal.Point

end
-- ==== Proof.KernelArray.lean ====
/-
  From the grid points' blocks to the whole result array.

  The 32 grid points tile the result by rows: point `t` stages rows `2048 t … 2048 t + 2047` of the samples, all the
  centres, and the one row of the centres' squared norms that the host computed before the call (a row sum started
  from zero, laid out as a 1 × 1024 row), and writes back rows `2048 t …` of the result.  What it writes is the layer
  function read through that block; the blocks cover the array (row `r` lies in the block of point `r / 2048`); so
  after the run the result array IS the layer function of the two argument arrays.
-/
import proofs.«113761_j87668872446249_2_alg».proof.Proof.Gen.KernelIdeal.Value
import proofs.«113761_j87668872446249_2_alg».proof.Proof.KernelPoint
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

/-- A whole-block access starts at offset zero on both axes. -/
theorem zeroOffsets : (![0, 0] : Fin 2 → Nat) = fun _ => 0 := funext fun a => by fin_cases a <;> rfl

/-- The block each window has at point `t`, decided over the grid: the samples and the result move down one block of
    rows per point; the centres and their norms stay at block (0, 0). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The centres' squared norms, as the call finds them -/

/-- The array the third window stages is what the host wrote before the call: the row sums of the centres' squares,
    started from zero, as one row. -/
theorem centreNorms (c : Dev nD) : (V m c main_v2 : S1x1024.Idx → EReal)
    = broadcastInDim S1x1024 ![1] bcast_S1024_S1x1024_1 (Host.reduceAdd (F := Ideal)
        (mulf (m ((c : Thread nD τ).loc main_arg1)) (m ((c : Thread nD τ).loc main_arg1)))
        (constant (F := Ideal) S_ .f32 0x00000000#32) reducesTo_S1024x64_S1024_d1 h_S_) := by
  dsimp only [Gen.V, Gen.hostOps0]
  after_results

/-- A matrix's row sums started from zero, laid out as one row, read at `(0, q)`: the squared-norm sum of row `q`
    when the matrix is the entrywise square. -/
theorem rowOfNorms_apply (C : FVec Ideal S1024x64 .f32) (q : Fin 1024) :
    broadcastInDim S1x1024 ![1] bcast_S1024_S1x1024_1 (Host.reduceAdd (F := Ideal) (mulf C C)
      (constant (F := Ideal) S_ .f32 0x00000000#32) reducesTo_S1024x64_S1024_d1 h_S_) (ix2 (0 : Fin 1) q)
      = Cert.Rbf.sqNorm C q := by
  refine (broadcastInDim_apply _ bcast_S1024_S1x1024_1 _ (ix2 (0 : Fin 1) q) (ix1 q) (fun a => match a with
    | ⟨0, _⟩ => by show q.val = if (1024 : Nat) = 1 then 0 else q.val; rw [if_neg (by decide)])).trans ?_
  simp only [Host.reduceAdd, Ideal.hostReduceAdd_def]
  rw [Ideal.hostReduceAdd_single reducesTo_S1024x64_S1024_d1 (by decide)]
  rw [show (constant (F := Ideal) S_ .f32 0x00000000#32) (Shape.Idx.first h_S_) = 0 from Ideal.ofBits_zero_f32, zero_add]
  refine Finset.sum_congr rfl fun k _ => ?_
  exact congrArg (mulf C C) (funext fun a => Fin.ext (by match a with | ⟨0, _⟩ => rfl | ⟨1, _⟩ => rfl))

/-- Entry `q` of the staged row is the squared norm of centre `q`. -/
theorem centreNorms_apply (c : Dev nD) (q : Fin 1024) :
    (V m c main_v2 : S1x1024.Idx → EReal) (ix2 (0 : Fin 1) q) = Cert.Rbf.sqNorm (m ((c : Thread nD τ).loc main_arg1)) q := by
  rw [centreNorms]
  exact rowOfNorms_apply _ q

/-! ## The input blocks at a point -/

/-- The samples' block at point `t` is rows `2048 t …` of the samples. -/
theorem sampleBlock_apply (c : Dev nD) (t : Fin cfg0.N) (y : S2048x64.Idx) (k : S65536x64.Idx)
    (hk0 : (k 0).val = t.val * 2048 + (y 0).val) (hk1 : (k 1).val = (y 1).val) :
    (iblk m c 0 t : FVec Ideal S2048x64 .f32) y = (m ((c : Thread nD τ).loc main_arg0) : S65536x64.Idx → EReal) k := by
  obtain ⟨e0, e1, -⟩ := blockIndex t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * (y 0).val = (k 0).val; rw [e0, hk0]; omega
  | ⟨1, _⟩ => show win0_0.index t (1 : Fin 2) * 64 + 1 * (y 1).val = (k 1).val; rw [e1, hk1]; omega

/-- The centres' block at every point is all the centres. -/
theorem centreBlock_apply (c : Dev nD) (t : Fin cfg0.N) (y : S1024x64.Idx) :
    (iblk m c 1 t : FVec Ideal S1024x64 .f32) y = (m ((c : Thread nD τ).loc main_arg1) : S1024x64.Idx → EReal) y := by
  obtain ⟨-, -, e2, e3, -⟩ := blockIndex t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * (y 0).val = (y 0).val; rw [e2]; omega
  | ⟨1, _⟩ => show win0_1.index t (1 : Fin 2) * 64 + 1 * (y 1).val = (y 1).val; rw [e3]; omega

/-- The norms' block at every point is the whole row of squared norms. -/
theorem normBlock_apply (c : Dev nD) (t : Fin cfg0.N) (y : S1x1024.Idx) :
    (iblk m c 2 t : FVec Ideal S1x1024 .f32) y = (V m c main_v2 : S1x1024.Idx → EReal) y := by
  obtain ⟨-, -, -, -, e4, e5, -⟩ := blockIndex t
  unfold iblk
  rw [View.read_apply]
  show V m c main_v2 _ = _
  refine congrArg (V m c main_v2) (funext fun a => Fin.ext ?_)
  match a with
  | ⟨0, _⟩ => show win0_2.index t (0 : Fin 2) * 1 + 1 * (y 0).val = (y 0).val; rw [e4]; omega
  | ⟨1, _⟩ => show win0_2.index t (1 : Fin 2) * 1024 + 1 * (y 1).val = (y 1).val; rw [e5]; omega

/-! ## What a point writes back, the cover, and the array after the run -/

/-- WHAT POINT `t` WRITES BACK is block `t` of the layer function of the two argument arrays. -/
theorem flushed_eq (c : Dev nD) (t : Fin cfg0.N) :
    (dats m 0 c).flushed 3 t = ((cfg0.win 3).blk t).view.read (Elt Ideal)
      (Cert.Rbf.rbf (m ((c : Thread nD τ).loc main_arg0)) (m ((c : Thread nD τ).loc main_arg1))) := by
  rw [flushed3]
  unfold out0_3
  rw [View.canon_unit_zero zeroOffsets]
  simp only [View.ld_unit_zero (S := S2048x64) zeroOffsets, View.ld_unit_zero (S := S1024x64) zeroOffsets,
    View.ld_unit_zero (S := S1x1024) zeroOffsets]
  obtain ⟨-, -, -, -, -, -, e6, e7⟩ := blockIndex t
  funext j
  rw [View.read_apply]
  show k0_pay1 (iblk m c 0 t) (iblk m c 1 t) (iblk m c 2 t) j = _
  refine Point.payload_is_layer (iblk m c 0 t) (iblk m c 1 t) (iblk m c 2 t) _ _ t.val
    (fun y k h0 h1 => sampleBlock_apply m c t y k h0 h1) (centreBlock_apply m c t)
    (fun q => (normBlock_apply m c t _).trans (centreNorms_apply m c q)) j _ ?_ ?_
  · show win0_3.index t (0 : Fin 2) * 2048 + 1 * (j 0).val = t.val * 2048 + (j 0).val
    rw [e6]; omega
  · show win0_3.index t (1 : Fin 2) * 1024 + 1 * (j 1).val = (j 1).val
    rw [e7]; omega

/-- An index of the array is in point `t`'s block iff each coordinate is in the block's range on its axis. -/
theorem mem_block (t : Fin cfg0.N) (i : S65536x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v3).slice (win0_3.rect t)).set ↔ _
  rw [View.set_slice_whole, Rect.mem_set_unit]
  exact Iff.rfl

/-- THE COVER: row `r` of the result lies in the block of point `r / 2048`. -/
theorem covered (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, e6, e7⟩ := blockIndex t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 1024 ≤ (i 1).val ∧ (i 1).val < win0_3.index t (1 : Fin 2) * 1024 + 1024
    rw [e7]; omega

/-- THE ARRAY after the run is the layer function of the two argument arrays. -/
theorem final (c : Dev nD) : (dats m 0 c).arrAt 3 cfg0.N
    = Cert.Rbf.rbf (m ((c : Thread nD τ).loc main_arg0)) (m ((c : Thread nD τ).loc main_arg1)) :=
  (dats m 0 c).arrAt_eq_of_cover 3 _ (fun t _ => flushed_eq m c t) covered

/-- The run, read: the result array at the layer function of the arguments, the arguments unchanged. -/
theorem run : θ_run defs (onTc (τ := τ) (main (F := Ideal))) ⟨m, fun _ => 0, ρ⟩ fun r => ∀ c : Dev nD,
      r.2.mem ((c : Thread nD τ).loc main_v3)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.lean ====
/-
  The radial basis layer: the kernel against its reference, on the extended reals.

  Both programs compute, for every (sample `b`, centre `n`), `exp (γ' · max (‖x_b‖² + ‖c_n‖² − 2 · ⟨x_b, c_n⟩, 0))`.
  The kernel tiles the samples by blocks of 2048 rows, keeps all the centres and the centres' squared norms (which
  the host sums before the call) resident, takes the samples' squared norms by a sum along each row and the cross
  term by a product with the transposed centres into a zero accumulator; the reference takes the same three numbers
  by two host row sums and one contraction of the whole arrays.  Sum by sum and constant by constant the two are the
  same function `Cert.Rbf.rbf` of the argument arrays: no law beyond `0 + a = a` joins them, so the inputs' finiteness
  is never used.

  The three frames are the generated ones (the reference's is its run with the result dropped); the idealization
  rewrote nothing, so `preserves` is trivial; `algebraic` sets the kernel's run (its blocks assembled into the whole
  array) beside the reference's run (its last stage read index by index).
-/
import proofs.«113761_j87668872446249_2_alg».proof.Defs
import proofs.«113761_j87668872446249_2_alg».proof.Proof.Gen.Kernel
import proofs.«113761_j87668872446249_2_alg».proof.Proof.Gen.Kernel.Frame
import proofs.«113761_j87668872446249_2_alg».proof.Proof.Gen.KernelIdeal
import proofs.«113761_j87668872446249_2_alg».proof.Proof.Gen.KernelIdeal.Frame
import proofs.«113761_j87668872446249_2_alg».proof.Proof.Gen.KernelIdeal.Value
import proofs.«113761_j87668872446249_2_alg».proof.Proof.Gen.ReferenceIdeal
import proofs.«113761_j87668872446249_2_alg».proof.Proof.Gen.ReferenceIdeal.Run
import proofs.«113761_j87668872446249_2_alg».proof.Proof.Gen.ReferenceIdeal.Read
import proofs.«113761_j87668872446249_2_alg».proof.Proof.Gen.Pre_finite_inputs
import proofs.«113761_j87668872446249_2_alg».proof.Proof.RbfSpec
import proofs.«113761_j87668872446249_2_alg».proof.Proof.RefIsRbf
import proofs.«113761_j87668872446249_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the samples and the centres, both programs end with the layer function of those two
    arrays in their result: the kernel's blocks assembled (`Whole.run`), the reference's last stage read index by
    index (`reference_is_rbf`). -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.reference_is_rbf, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
